-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x10 .f32) (main_arg9 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x10 .f32 := Host.absf main_arg8
  let main_cst_10 : FVec F S_ .f32 := constant S_ .f32 0x7F800000#32
  let main_v30 : FVec F S128x10 .f32 := broadcastInDim S128x10 ![] bcast_S_S128x10 main_cst_10
  let main_v31 : IVec S128x10 1 := cmpf .olt main_v29 main_v30
  let main_c_11 : IVec S_ 1 := constantI S_ 1 1#1
  let main_v32 : IVec S_ 1 := (fun x v => Host.reduce IntOp.andi x v reducesTo_S128x10_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x800000 32) (main_arg2 : FVec F S800000 .f32) (main_arg3 : IVec S50000 32) (main_arg4 : FVec F S128x128 .f32) (main_arg5 : FVec F S128 .f32) (main_arg6 : FVec F S128x128 .f32) (main_arg7 : FVec F S128 .f32) (main_arg8 : FVec F S128x10 .f32) (main_arg9 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S50000x10 : Shape := ⟨2, ![50000, 10]⟩
abbrev S2000x10 : Shape := ⟨2, ![2000, 10]⟩
abbrev S850000x10 : Shape := ⟨2, ![850000, 10]⟩
abbrev S1x10 : Shape := ⟨2, ![1, 10]⟩
abbrev S50000x1 : Shape := ⟨2, ![50000, 1]⟩
abbrev S128x1 : Shape := ⟨2, ![128, 1]⟩

abbrev nBuf : Space → Nat
  | .hbm => 149
  | .vmem => 15
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S128x128, .f32⟩
  | 5 => ⟨S128, .f32⟩
  | 6 => ⟨S128x128, .f32⟩
  | 7 => ⟨S128, .f32⟩
  | 8 => ⟨S128x10, .f32⟩
  | 9 => ⟨S10, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S50000, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x128, .f32⟩
  | 85 => ⟨S850000x1, .f32⟩
  | 86 => ⟨S850000x128, .f32⟩
  | 87 => ⟨S850000x128, .f32⟩
  | 88 => ⟨S_, .f32⟩
  | 89 => ⟨S50000x128, .f32⟩
  | 90 => ⟨S850000x1, .i32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x10, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x10, .f32⟩
  | 108 => ⟨S850000x1, .f32⟩
  | 109 => ⟨S850000x10, .f32⟩
  | 110 => ⟨S850000x10, .f32⟩
  | 111 => ⟨S_, .f32⟩
  | 112 => ⟨S50000x10, .f32⟩
  | 113 => ⟨S850000x1, .i32⟩
  | 114 => ⟨S50000x10, .f32⟩
  | 115 => ⟨S1x10, .f32⟩
  | 116 => ⟨S50000x10, .f32⟩
  | 117 => ⟨S50000x10, .f32⟩
  | 118 => ⟨S_, .f32⟩
  | 119 => ⟨S128x10, .f32⟩
  | 120 => ⟨S50000x1, .i32⟩
  | 121 => ⟨S128x10, .f32⟩
  | 122 => ⟨S_, .f32⟩
  | 123 => ⟨S50000, .f32⟩
  | 124 => ⟨S_, .f32⟩
  | 125 => ⟨S128, .f32⟩
  | 126 => ⟨S50000x1, .i32⟩
  | 127 => ⟨S128, .f32⟩
  | _ => ⟨S50000x128, .f32⟩

abbrev hbmTy0_1 (i : Nat) : BufTy := match i % 128 with
  | 0 => ⟨S_, .f32⟩
  | 1 => ⟨S128, .f32⟩
  | 2 => ⟨S128, .f32⟩
  | 3 => ⟨S128x1, .f32⟩
  | 4 => ⟨S128x10, .f32⟩
  | 5 => ⟨S128x10, .f32⟩
  | 6 => ⟨S_, .f32⟩
  | 7 => ⟨S128, .f32⟩
  | 8 => ⟨S_, .f32⟩
  | 9 => ⟨S128, .f32⟩
  | 10 => ⟨S128, .f32⟩
  | 11 => ⟨S128x1, .f32⟩
  | 12 => ⟨S128x10, .f32⟩
  | 13 => ⟨S128x10, .f32⟩
  | 14 => ⟨S128x10, .f32⟩
  | 15 => ⟨S_, .f32⟩
  | 16 => ⟨S128, .f32⟩
  | 17 => ⟨S128x1, .f32⟩
  | 18 => ⟨S128x1, .f32⟩
  | 19 => ⟨S128x10, .f32⟩
  | 20 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x10, .f32⟩
  | .local _ .vmem, ⟨13, _⟩ => ⟨S2000x10, .f32⟩
  | .local _ .vmem, ⟨14, _⟩ => ⟨S2000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_9 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_v68 : Ref sig .tc := ⟨.hbm, 98, rfl⟩
abbrev main_c_12 : Ref sig .tc := ⟨.hbm, 99, rfl⟩
abbrev main_v69 : Ref sig .tc := ⟨.hbm, 100, rfl⟩
abbrev main_v70 : Ref sig .tc := ⟨.hbm, 101, rfl⟩
abbrev main_c_13 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_14 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_15 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_16 : Ref sig .tc := ⟨.hbm, 122, rfl⟩
abbrev main_v88 : Ref sig .tc := ⟨.hbm, 123, rfl⟩
abbrev main_cst_17 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_18 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_call3_cst : Ref sig .tc := ⟨.hbm, 134, rfl⟩
abbrev main_call3_v0 : Ref sig .tc := ⟨.hbm, 135, rfl⟩
abbrev main_call3_cst_0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_call3_v6 : Ref sig .tc := ⟨.hbm, 142, rfl⟩
abbrev main_call3_cst_1 : Ref sig .tc := ⟨.hbm, 143, rfl⟩
abbrev main_call3_v7 : Ref sig .tc := ⟨.hbm, 144, rfl⟩
abbrev main_call3_v8 : Ref sig .tc := ⟨.hbm, 145, rfl⟩
abbrev main_call3_v9 : Ref sig .tc := ⟨.hbm, 146, rfl⟩
abbrev main_call3_v10 : Ref sig .tc := ⟨.hbm, 147, rfl⟩
abbrev main_v97 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x10_S128x10_0_0 : ∀ a, (![0, 0] : Fin 2 → Nat) a + S128x10.size a ≤ S128x10.size a
  h_S128x10 : 0 < S128x10.numel
  inb_S2000x10_S2000x10_0_0 : ∀ a, (![0, 0] : Fin 2 → Nat) a + S2000x10.size a ≤ S2000x10.size a
  h_S2000x10 : 0 < S2000x10.numel
  bcast_S850000x1_S850000x10_0_1 : S850000x1.BroadcastsInDim S850000x10 (![0, 1] : Fin 2 → Fin S850000x10.rank)
  bcast_S_S50000x10 : S_.BroadcastsInDim S50000x10 (![] : Fin 0 → Fin S50000x10.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  bcast_S_S128x10 : S_.BroadcastsInDim S128x10 (![] : Fin 0 → Fin S128x10.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  reducesTo_S128x10_S128_d1 : S128x10.ReducesTo [1] S128
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x10_S2000x10_1_0_0_1_n_n_wf : DotDims.WF S2000x128 S128x10 S2000x10 [1] [0] [0] [1] [] []
  gather_S50000x10_S850000x1_S850000x10_1_0_n_n_0_1_110_wf : GatherDims.WF S50000x10 S850000x1 S850000x10 [1] [0] [] [0] [] 1 ![1, 10]
  scatter_S50000x10_S850000x1_S850000x10_1_0_0_1_wf : ScatterDims.WF S50000x10 S850000x1 S850000x10 [1] [0] [0] 1
  scatter_S128x10_S50000x1_S50000x10_1_0_0_1_wf : ScatterDims.WF S128x10 S50000x1 S50000x10 [1] [0] [0] 1
  scatter_S128_S50000x1_S50000_n_0_0_1_wf : ScatterDims.WF S128 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x10.size a ≤ S128x10.size a
  hwx2_1 : ∀ i : grid2.Coords, EltTy.bits .f32 = 32 ∨ (Rect.block (s := S128x10) S128x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x10.size a ≤ S50000x10.size a
  hwx2_2 : ∀ i : grid2.Coords, EltTy.bits .f32 = 32 ∨ (Rect.block (s := S50000x10) S2000x10.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x10_S2000x10_1_0_0_1_n_n : DotDims S2000x128 S128x10 S2000x10 where
  lhsContracting := [1]
  rhsContracting := [0]
  lhsNonContracting := [0]
  rhsNonContracting := [1]
  lhsBatch := []
  rhsBatch := []
  wf := dot_S2000x128_S128x10_S2000x10_1_0_0_1_n_n_wf
def gather_S50000x10_S850000x1_S850000x10_1_0_n_n_0_1_110 : GatherDims S50000x10 S850000x1 S850000x10 where
  offsetDims := [1]
  collapsedSliceDims := [0]
  operandBatchingDims := []
  startIndicesBatchingDims := []
  startIndexMap := [0]
  indexVectorDim := 1
  sliceSizes := ![1, 10]
  wf := gather_S50000x10_S850000x1_S850000x10_1_0_n_n_0_1_110_wf
def scatter_S50000x10_S850000x1_S850000x10_1_0_0_1 : ScatterDims S50000x10 S850000x1 S850000x10 where
  updateWindowDims := [1]
  insertedWindowDims := [0]
  scatterDimsToOperandDims := [0]
  indexVectorDim := 1
  wf := scatter_S50000x10_S850000x1_S850000x10_1_0_0_1_wf
def scatter_S128x10_S50000x1_S50000x10_1_0_0_1 : ScatterDims S128x10 S50000x1 S50000x10 where
  updateWindowDims := [1]
  insertedWindowDims := [0]
  scatterDimsToOperandDims := [0]
  indexVectorDim := 1
  wf := scatter_S128x10_S50000x1_S50000x10_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S2000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x10 : Shape := ⟨2, ![50000, 10]⟩
abbrev S850000x10 : Shape := ⟨2, ![850000, 10]⟩
abbrev S1x10 : Shape := ⟨2, ![1, 10]⟩
abbrev S50000x1 : Shape := ⟨2, ![50000, 1]⟩
abbrev S128x1 : Shape := ⟨2, ![128, 1]⟩

abbrev nBuf : Space → Nat
  | .hbm => 213
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S128x128, .f32⟩
  | 5 => ⟨S128, .f32⟩
  | 6 => ⟨S128x128, .f32⟩
  | 7 => ⟨S128, .f32⟩
  | 8 => ⟨S128x10, .f32⟩
  | 9 => ⟨S10, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S50000, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S850000, .f32⟩
  | 107 => ⟨S50000x128, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x128, .f32⟩
  | 117 => ⟨S850000x1, .f32⟩
  | 118 => ⟨S850000x128, .f32⟩
  | 119 => ⟨S850000x128, .f32⟩
  | 120 => ⟨S_, .f32⟩
  | 121 => ⟨S50000x128, .f32⟩
  | 122 => ⟨S850000x1, .i32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000, .f32⟩
  | 4 => ⟨S850000x1, .i32⟩
  | 5 => ⟨S50000, .f32⟩
  | 6 => ⟨S_, .f32⟩
  | 7 => ⟨S50000, .f32⟩
  | 8 => ⟨S50000, .i1⟩
  | 9 => ⟨S50000, .f32⟩
  | 10 => ⟨S_, .f32⟩
  | 11 => ⟨S_, .f32⟩
  | 12 => ⟨S50000, .f32⟩
  | 13 => ⟨S50000, .f32⟩
  | 14 => ⟨S_, .i32⟩
  | 15 => ⟨S850000, .i32⟩
  | 16 => ⟨S850000, .i1⟩
  | 17 => ⟨S_, .i32⟩
  | 18 => ⟨S850000, .i32⟩
  | 19 => ⟨S850000, .i32⟩
  | 20 => ⟨S850000, .i32⟩
  | 21 => ⟨S850000x1, .i32⟩
  | 22 => ⟨S850000, .f32⟩
  | 23 => ⟨S850000, .f32⟩
  | 24 => ⟨S_, .i32⟩
  | 25 => ⟨S850000, .i32⟩
  | 26 => ⟨S850000, .i1⟩
  | 27 => ⟨S_, .i32⟩
  | 28 => ⟨S850000, .i32⟩
  | 29 => ⟨S850000, .i32⟩
  | 30 => ⟨S850000, .i32⟩
  | 31 => ⟨S850000x1, .i32⟩
  | 32 => ⟨S850000, .f32⟩
  | 33 => ⟨S850000, .f32⟩
  | 34 => ⟨S50000x10, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000x10, .f32⟩
  | 44 => ⟨S850000x1, .f32⟩
  | 45 => ⟨S850000x10, .f32⟩
  | 46 => ⟨S850000x10, .f32⟩
  | 47 => ⟨S_, .f32⟩
  | 48 => ⟨S50000x10, .f32⟩
  | 49 => ⟨S850000x1, .i32⟩
  | 50 => ⟨S50000x10, .f32⟩
  | 51 => ⟨S1x10, .f32⟩
  | 52 => ⟨S50000x10, .f32⟩
  | 53 => ⟨S50000x10, .f32⟩
  | 54 => ⟨S_, .f32⟩
  | 55 => ⟨S128x10, .f32⟩
  | 56 => ⟨S50000x1, .i32⟩
  | 57 => ⟨S128x10, .f32⟩
  | 58 => ⟨S_, .f32⟩
  | 59 => ⟨S50000, .f32⟩
  | 60 => ⟨S_, .f32⟩
  | 61 => ⟨S128, .f32⟩
  | 62 => ⟨S50000x1, .i32⟩
  | 63 => ⟨S128, .f32⟩
  | 64 => ⟨S_, .f32⟩
  | 65 => ⟨S128, .f32⟩
  | 66 => ⟨S128, .f32⟩
  | 67 => ⟨S128x1, .f32⟩
  | 68 => ⟨S128x10, .f32⟩
  | 69 => ⟨S128x10, .f32⟩
  | 70 => ⟨S_, .f32⟩
  | 71 => ⟨S128, .f32⟩
  | 72 => ⟨S_, .f32⟩
  | 73 => ⟨S128, .f32⟩
  | 74 => ⟨S128, .f32⟩
  | 75 => ⟨S128x1, .f32⟩
  | 76 => ⟨S128x10, .f32⟩
  | 77 => ⟨S128x10, .f32⟩
  | 78 => ⟨S128x10, .f32⟩
  | 79 => ⟨S_, .f32⟩
  | 80 => ⟨S128, .f32⟩
  | 81 => ⟨S128x1, .f32⟩
  | 82 => ⟨S128x1, .f32⟩
  | 83 => ⟨S128x10, .f32⟩
  | 84 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_call2_v0 : Ref sig .tc := ⟨.hbm, 84, rfl⟩
abbrev main_call2_v1 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_v58 : Ref sig .tc := ⟨.hbm, 89, rfl⟩
abbrev main_c_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_14 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_16 : Ref sig .tc := ⟨.hbm, 108, rfl⟩
abbrev main_v74 : Ref sig .tc := ⟨.hbm, 109, rfl⟩
abbrev main_v75 : Ref sig .tc := ⟨.hbm, 110, rfl⟩
abbrev main_c_17 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_18 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_call3_cst : Ref sig .tc := ⟨.hbm, 127, rfl⟩
abbrev main_call3_v0 : Ref sig .tc := ⟨.hbm, 128, rfl⟩
abbrev main_v90 : Ref sig .tc := ⟨.hbm, 129, rfl⟩
abbrev main_cst_19 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_20 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_21 : Ref sig .tc := ⟨.hbm, 138, rfl⟩
abbrev main_call4_v0 : Ref sig .tc := ⟨.hbm, 139, rfl⟩
abbrev main_call4_v1 : Ref sig .tc := ⟨.hbm, 140, rfl⟩
abbrev main_v97 : Ref sig .tc := ⟨.hbm, 141, rfl⟩
abbrev main_c_22 : Ref sig .tc := ⟨.hbm, 142, rfl⟩
abbrev main_v98 : Ref sig .tc := ⟨.hbm, 143, rfl⟩
abbrev main_v99 : Ref sig .tc := ⟨.hbm, 144, rfl⟩
abbrev main_c_23 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_c_24 : Ref sig .tc := ⟨.hbm, 152, rfl⟩
abbrev main_v106 : Ref sig .tc := ⟨.hbm, 153, rfl⟩
abbrev main_v107 : Ref sig .tc := ⟨.hbm, 154, rfl⟩
abbrev main_c_25 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_c_26 : Ref sig .tc := ⟨.hbm, 163, rfl⟩
abbrev main_v115 : Ref sig .tc := ⟨.hbm, 164, rfl⟩
abbrev main_v116 : Ref sig .tc := ⟨.hbm, 165, rfl⟩
abbrev main_c_27 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_28 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_cst_29 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_30 : Ref sig .tc := ⟨.hbm, 186, rfl⟩
abbrev main_v134 : Ref sig .tc := ⟨.hbm, 187, rfl⟩
abbrev main_cst_31 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_cst_32 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_call5_cst : Ref sig .tc := ⟨.hbm, 198, rfl⟩
abbrev main_call5_v0 : Ref sig .tc := ⟨.hbm, 199, rfl⟩
abbrev main_call5_cst_0 : Ref sig .tc := ⟨.hbm, 200, rfl⟩
abbrev main_call5_v1 : Ref sig .tc := ⟨.hbm, 201, rfl⟩
abbrev main_call5_v2 : Ref sig .tc := ⟨.hbm, 202, rfl⟩
abbrev main_call5_v3 : Ref sig .tc := ⟨.hbm, 203, rfl⟩
abbrev main_call5_v4 : Ref sig .tc := ⟨.hbm, 204, rfl⟩
abbrev main_call5_v5 : Ref sig .tc := ⟨.hbm, 205, rfl⟩
abbrev main_call5_v6 : Ref sig .tc := ⟨.hbm, 206, rfl⟩
abbrev main_call5_cst_1 : Ref sig .tc := ⟨.hbm, 207, rfl⟩
abbrev main_call5_v7 : Ref sig .tc := ⟨.hbm, 208, rfl⟩
abbrev main_call5_v8 : Ref sig .tc := ⟨.hbm, 209, rfl⟩
abbrev main_call5_v9 : Ref sig .tc := ⟨.hbm, 210, rfl⟩
abbrev main_call5_v10 : Ref sig .tc := ⟨.hbm, 211, rfl⟩
abbrev main_v143 : Ref sig .tc := ⟨.hbm, 212, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x10_0_1 : S850000x1.BroadcastsInDim S850000x10 (![0, 1] : Fin 2 → Fin S850000x10.rank)
  bcast_S_S50000x10 : S_.BroadcastsInDim S50000x10 (![] : Fin 0 → Fin S50000x10.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  bcast_S_S128x10 : S_.BroadcastsInDim S128x10 (![] : Fin 0 → Fin S128x10.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  reducesTo_S128x10_S128_d1 : S128x10.ReducesTo [1] S128
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x10_S50000x10_1_0_0_1_n_n_wf : DotDims.WF S50000x128 S128x10 S50000x10 [1] [0] [0] [1] [] []
  gather_S50000x10_S850000x1_S850000x10_1_0_n_n_0_1_110_wf : GatherDims.WF S50000x10 S850000x1 S850000x10 [1] [0] [] [0] [] 1 ![1, 10]
  scatter_S50000x10_S850000x1_S850000x10_1_0_0_1_wf : ScatterDims.WF S50000x10 S850000x1 S850000x10 [1] [0] [0] 1
  scatter_S128x10_S50000x1_S50000x10_1_0_0_1_wf : ScatterDims.WF S128x10 S50000x1 S50000x10 [1] [0] [0] 1
  scatter_S128_S50000x1_S50000_n_0_0_1_wf : ScatterDims.WF S128 S50000x1 S50000 [] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf
def gather_S50000x10_S850000x1_S850000x10_1_0_n_n_0_1_110 : GatherDims S50000x10 S850000x1 S850000x10 where
  offsetDims := [1]
  collapsedSliceDims := [0]
  operandBatchingDims := []
  startIndicesBatchingDims := []
  startIndexMap := [0]
  indexVectorDim := 1
  sliceSizes := ![1, 10]
  wf := gather_S50000x10_S850000x1_S850000x10_1_0_n_n_0_1_110_wf
def scatter_S50000x10_S850000x1_S850000x10_1_0_0_1 : ScatterDims S50000x10 S850000x1 S850000x10 where
  updateWindowDims := [1]
  insertedWindowDims := [0]
  scatterDimsToOperandDims := [0]
  indexVectorDim := 1
  wf := scatter_S50000x10_S850000x1_S850000x10_1_0_0_1_wf
def scatter_S128x10_S50000x1_S50000x10_1_0_0_1 : ScatterDims S128x10 S50000x1 S50000x10 where
  updateWindowDims := [1]
  insertedWindowDims := [0]
  scatterDimsToOperandDims := [0]
  indexVectorDim := 1
  wf := scatter_S128x10_S50000x1_S50000x10_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf

class Facts : Prop extends Facts₀ where

variable [Facts]
-- ==== Proof.KernelRun.lean ====
/-
  The idealized kernel's run with its last boundary NAMED.

  @main is twelve segments: stretches of host operations and three matmul regions. The generated frame proves
  that the run terminates and ends with every unscoped buffer of a TensorCore at the contents `W12 m ρ c` of
  the last boundary (the fold of the segments from the launch memory), and then keeps only what it needs: the
  argument arrays. Here the same launch is stated with the whole last boundary in its post — every unscoped
  buffer `b` ends at `W12 m ρ c b` — so that the result buffer can be read off it as well.
-/
import proofs.«138662_j3315714752625_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final state every unscoped
    buffer of every TensorCore holds the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

end Cert.KernelIdeal.Named

end
-- ==== Proof.Stage0.lean ====
/-
  The host operations before the first matmul region.

  Before the first region @main computes, from the edge list (argument 1) and the edge weights (argument 2), the
  three arrays every layer reads again: the source index of each edge with the self-loops appended (main_v3), the
  destination index likewise (main_v6), and the symmetric normalisation
      norm e = dinv[src e] · w e · dinv[dst e],   dinv = where(deg > 0, rsqrt deg, 0),   deg = segment-sum of w over dst
  (main_v31). The reference program computes the same three arrays by the same operations; its stages
  `val_main_v3`, `val_main_v6`, `val_main_v31` are those functions of the arguments. Here: at the boundary in front
  of the first region (the contents `W3`) the kernel program's three buffers hold exactly those functions of ITS
  arguments, at any float instance — the two texts are the same operations, so the equations are definitional
  once each host operation's result is read at its own buffer.
-/
import proofs.«138662_j3315714752625_1_alg».proof.Proof.Gen.KernelIdeal.Frame
import proofs.«138662_j3315714752625_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.Bridge

open Cert.KernelIdeal Cert.KernelIdeal.Gen

variable {F : FTy → Type} [FloatOps F]
variable (m : (ℓ : Loc nD τ sig) → Buf (Elt F) ℓ) (ρ : Dev nD → PrngReg)

/-- The sources of the edges, self-loops appended, as the first region finds them. -/
theorem w3_src (c : Dev nD) :
    W3 m ρ c (Proc.devRef .tc main_v3)
      = Cert.ReferenceIdeal.Read.val_main_v3 (F := F) (m ((c : Thread nD τ).loc main_arg1)) := by
  show StableHlo.after hostOps0_2 (StableHlo.after hostOps0_1 (StableHlo.after hostOps0 (W0 m ρ c))) _ = _
  simp only [hostOps0, hostOps0_1, hostOps0_2]
  after_results_simp
  rfl

/-- The destinations of the edges, self-loops appended. -/
theorem w3_dst (c : Dev nD) :
    W3 m ρ c (Proc.devRef .tc main_v6)
      = Cert.ReferenceIdeal.Read.val_main_v6 (F := F) (m ((c : Thread nD τ).loc main_arg1)) := by
  show StableHlo.after hostOps0_2 (StableHlo.after hostOps0_1 (StableHlo.after hostOps0 (W0 m ρ c))) _ = _
  simp only [hostOps0, hostOps0_1, hostOps0_2]
  after_results_simp
  rfl

/-- The symmetric normalisation of every edge. -/
theorem w3_norm (c : Dev nD) :
    W3 m ρ c (Proc.devRef .tc main_v31)
      = Cert.ReferenceIdeal.Read.val_main_v31 (F := F) (m ((c : Thread nD τ).loc main_arg1)) (m ((c : Thread nD τ).loc main_arg2)) := by
  show StableHlo.after hostOps0_2 (StableHlo.after hostOps0_1 (StableHlo.after hostOps0 (W0 m ρ c))) _ = _
  simp only [hostOps0, hostOps0_1, hostOps0_2]
  after_results_simp
  rfl

/-! No host operation before the first region writes an argument: at that boundary each argument array is as launched. -/

theorem w3_arg0 (c : Dev nD) : W3 m ρ c (Proc.devRef .tc main_arg0) = m ((c : Thread nD τ).loc main_arg0) := by
  show StableHlo.after hostOps0_2 (StableHlo.after hostOps0_1 (StableHlo.after hostOps0 (W0 m ρ c))) _ = _
  simp only [hostOps0, hostOps0_1, hostOps0_2]
  after_results_simp

theorem w3_arg3 (c : Dev nD) : W3 m ρ c (Proc.devRef .tc main_arg3) = m ((c : Thread nD τ).loc main_arg3) := by
  show StableHlo.after hostOps0_2 (StableHlo.after hostOps0_1 (StableHlo.after hostOps0 (W0 m ρ c))) _ = _
  simp only [hostOps0, hostOps0_1, hostOps0_2]
  after_results_simp

theorem w3_arg4 (c : Dev nD) : W3 m ρ c (Proc.devRef .tc main_arg4) = m ((c : Thread nD τ).loc main_arg4) := by
  show StableHlo.after hostOps0_2 (StableHlo.after hostOps0_1 (StableHlo.after hostOps0 (W0 m ρ c))) _ = _
  simp only [hostOps0, hostOps0_1, hostOps0_2]
  after_results_simp

theorem w3_arg5 (c : Dev nD) : W3 m ρ c (Proc.devRef .tc main_arg5) = m ((c : Thread nD τ).loc main_arg5) := by
  show StableHlo.after hostOps0_2 (StableHlo.after hostOps0_1 (StableHlo.after hostOps0 (W0 m ρ c))) _ = _
  simp only [hostOps0, hostOps0_1, hostOps0_2]
  after_results_simp

theorem w3_arg6 (c : Dev nD) : W3 m ρ c (Proc.devRef .tc main_arg6) = m ((c : Thread nD τ).loc main_arg6) := by
  show StableHlo.after hostOps0_2 (StableHlo.after hostOps0_1 (StableHlo.after hostOps0 (W0 m ρ c))) _ = _
  simp only [hostOps0, hostOps0_1, hostOps0_2]
  after_results_simp

theorem w3_arg7 (c : Dev nD) : W3 m ρ c (Proc.devRef .tc main_arg7) = m ((c : Thread nD τ).loc main_arg7) := by
  show StableHlo.after hostOps0_2 (StableHlo.after hostOps0_1 (StableHlo.after hostOps0 (W0 m ρ c))) _ = _
  simp only [hostOps0, hostOps0_1, hostOps0_2]
  after_results_simp

theorem w3_arg8 (c : Dev nD) : W3 m ρ c (Proc.devRef .tc main_arg8) = m ((c : Thread nD τ).loc main_arg8) := by
  show StableHlo.after hostOps0_2 (StableHlo.after hostOps0_1 (StableHlo.after hostOps0 (W0 m ρ c))) _ = _
  simp only [hostOps0, hostOps0_1, hostOps0_2]
  after_results_simp

theorem w3_arg9 (c : Dev nD) : W3 m ρ c (Proc.devRef .tc main_arg9) = m ((c : Thread nD τ).loc main_arg9) := by
  show StableHlo.after hostOps0_2 (StableHlo.after hostOps0_1 (StableHlo.after hostOps0 (W0 m ρ c))) _ = _
  simp only [hostOps0, hostOps0_1, hostOps0_2]
  after_results_simp

end Cert.Bridge

end
-- ==== Proof.Carry.lean ====
/-
  What the later boundaries still hold of the first one.

  After the first region nothing writes the edge sources (main_v3), the edge destinations (main_v6), the edge
  normalisation (main_v31) or an argument array again: a host operation writes only its own result buffer, and a
  region writes only its output array (main_v32, main_v50, main_v68). So at every later boundary of @main — behind
  a region (`W4`, `W7`, `W10`) or behind the host operations that follow it (`W6`, `W9`) — these buffers
  hold what they held in front of the first region (`W3`).
-/
import proofs.«138662_j3315714752625_1_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.Bridge

open Cert.KernelIdeal Cert.KernelIdeal.Gen

variable {F : FTy → Type} [FloatOps F]
variable (m : (ℓ : Loc nD τ sig) → Buf (Elt F) ℓ) (ρ : Dev nD → PrngReg)

/-! ## Behind the first region -/

theorem carry4_v3 (c : Dev nD) : W4 m ρ c (Proc.devRef .tc main_v3) = W3 m ρ c (Proc.devRef .tc main_v3) :=
  W4_of_ne m ρ c main_v3 (by decide)

theorem carry4_v6 (c : Dev nD) : W4 m ρ c (Proc.devRef .tc main_v6) = W3 m ρ c (Proc.devRef .tc main_v6) :=
  W4_of_ne m ρ c main_v6 (by decide)

theorem carry4_v31 (c : Dev nD) : W4 m ρ c (Proc.devRef .tc main_v31) = W3 m ρ c (Proc.devRef .tc main_v31) :=
  W4_of_ne m ρ c main_v31 (by decide)

theorem carry4_arg5 (c : Dev nD) : W4 m ρ c (Proc.devRef .tc main_arg5) = W3 m ρ c (Proc.devRef .tc main_arg5) :=
  W4_of_ne m ρ c main_arg5 (by decide)

/-! ## In front of the second region: the host operations of the first layer write none of these -/

theorem carry6_v3 (c : Dev nD) : W6 m ρ c (Proc.devRef .tc main_v3) = W3 m ρ c (Proc.devRef .tc main_v3) :=
  (show StableHlo.after hostOps1_1 (StableHlo.after hostOps1 (W4 m ρ c)) (Proc.devRef .tc main_v3) = W4 m ρ c (Proc.devRef .tc main_v3) by
    simp only [hostOps1, hostOps1_1]
    after_results_simp).trans (W4_of_ne m ρ c main_v3 (by decide))

theorem carry6_v6 (c : Dev nD) : W6 m ρ c (Proc.devRef .tc main_v6) = W3 m ρ c (Proc.devRef .tc main_v6) :=
  (show StableHlo.after hostOps1_1 (StableHlo.after hostOps1 (W4 m ρ c)) (Proc.devRef .tc main_v6) = W4 m ρ c (Proc.devRef .tc main_v6) by
    simp only [hostOps1, hostOps1_1]
    after_results_simp).trans (W4_of_ne m ρ c main_v6 (by decide))

theorem carry6_v31 (c : Dev nD) : W6 m ρ c (Proc.devRef .tc main_v31) = W3 m ρ c (Proc.devRef .tc main_v31) :=
  (show StableHlo.after hostOps1_1 (StableHlo.after hostOps1 (W4 m ρ c)) (Proc.devRef .tc main_v31) = W4 m ρ c (Proc.devRef .tc main_v31) by
    simp only [hostOps1, hostOps1_1]
    after_results_simp).trans (W4_of_ne m ρ c main_v31 (by decide))

theorem carry6_arg3 (c : Dev nD) : W6 m ρ c (Proc.devRef .tc main_arg3) = W3 m ρ c (Proc.devRef .tc main_arg3) :=
  (show StableHlo.after hostOps1_1 (StableHlo.after hostOps1 (W4 m ρ c)) (Proc.devRef .tc main_arg3) = W4 m ρ c (Proc.devRef .tc main_arg3) by
    simp only [hostOps1, hostOps1_1]
    after_results_simp).trans (W4_of_ne m ρ c main_arg3 (by decide))

theorem carry6_arg6 (c : Dev nD) : W6 m ρ c (Proc.devRef .tc main_arg6) = W3 m ρ c (Proc.devRef .tc main_arg6) :=
  (show StableHlo.after hostOps1_1 (StableHlo.after hostOps1 (W4 m ρ c)) (Proc.devRef .tc main_arg6) = W4 m ρ c (Proc.devRef .tc main_arg6) by
    simp only [hostOps1, hostOps1_1]
    after_results_simp).trans (W4_of_ne m ρ c main_arg6 (by decide))

theorem carry6_arg7 (c : Dev nD) : W6 m ρ c (Proc.devRef .tc main_arg7) = W3 m ρ c (Proc.devRef .tc main_arg7) :=
  (show StableHlo.after hostOps1_1 (StableHlo.after hostOps1 (W4 m ρ c)) (Proc.devRef .tc main_arg7) = W4 m ρ c (Proc.devRef .tc main_arg7) by
    simp only [hostOps1, hostOps1_1]
    after_results_simp).trans (W4_of_ne m ρ c main_arg7 (by decide))

theorem carry6_arg8 (c : Dev nD) : W6 m ρ c (Proc.devRef .tc main_arg8) = W3 m ρ c (Proc.devRef .tc main_arg8) :=
  (show StableHlo.after hostOps1_1 (StableHlo.after hostOps1 (W4 m ρ c)) (Proc.devRef .tc main_arg8) = W4 m ρ c (Proc.devRef .tc main_arg8) by
    simp only [hostOps1, hostOps1_1]
    after_results_simp).trans (W4_of_ne m ρ c main_arg8 (by decide))

theorem carry6_arg9 (c : Dev nD) : W6 m ρ c (Proc.devRef .tc main_arg9) = W3 m ρ c (Proc.devRef .tc main_arg9) :=
  (show StableHlo.after hostOps1_1 (StableHlo.after hostOps1 (W4 m ρ c)) (Proc.devRef .tc main_arg9) = W4 m ρ c (Proc.devRef .tc main_arg9) by
    simp only [hostOps1, hostOps1_1]
    after_results_simp).trans (W4_of_ne m ρ c main_arg9 (by decide))

/-! ## Behind the second region -/

theorem carry7_v3 (c : Dev nD) : W7 m ρ c (Proc.devRef .tc main_v3) = W3 m ρ c (Proc.devRef .tc main_v3) :=
  (W7_of_ne m ρ c main_v3 (by decide)).trans (carry6_v3 m ρ c)

theorem carry7_v6 (c : Dev nD) : W7 m ρ c (Proc.devRef .tc main_v6) = W3 m ρ c (Proc.devRef .tc main_v6) :=
  (W7_of_ne m ρ c main_v6 (by decide)).trans (carry6_v6 m ρ c)

theorem carry7_v31 (c : Dev nD) : W7 m ρ c (Proc.devRef .tc main_v31) = W3 m ρ c (Proc.devRef .tc main_v31) :=
  (W7_of_ne m ρ c main_v31 (by decide)).trans (carry6_v31 m ρ c)

theorem carry7_arg7 (c : Dev nD) : W7 m ρ c (Proc.devRef .tc main_arg7) = W3 m ρ c (Proc.devRef .tc main_arg7) :=
  (W7_of_ne m ρ c main_arg7 (by decide)).trans (carry6_arg7 m ρ c)

/-! ## In front of the third region: nor do the host operations of the second layer -/

theorem carry9_v3 (c : Dev nD) : W9 m ρ c (Proc.devRef .tc main_v3) = W3 m ρ c (Proc.devRef .tc main_v3) :=
  (show StableHlo.after hostOps2_1 (StableHlo.after hostOps2 (W7 m ρ c)) (Proc.devRef .tc main_v3) = W7 m ρ c (Proc.devRef .tc main_v3) by
    simp only [hostOps2, hostOps2_1]
    after_results_simp).trans ((W7_of_ne m ρ c main_v3 (by decide)).trans (carry6_v3 m ρ c))

theorem carry9_v6 (c : Dev nD) : W9 m ρ c (Proc.devRef .tc main_v6) = W3 m ρ c (Proc.devRef .tc main_v6) :=
  (show StableHlo.after hostOps2_1 (StableHlo.after hostOps2 (W7 m ρ c)) (Proc.devRef .tc main_v6) = W7 m ρ c (Proc.devRef .tc main_v6) by
    simp only [hostOps2, hostOps2_1]
    after_results_simp).trans ((W7_of_ne m ρ c main_v6 (by decide)).trans (carry6_v6 m ρ c))

theorem carry9_v31 (c : Dev nD) : W9 m ρ c (Proc.devRef .tc main_v31) = W3 m ρ c (Proc.devRef .tc main_v31) :=
  (show StableHlo.after hostOps2_1 (StableHlo.after hostOps2 (W7 m ρ c)) (Proc.devRef .tc main_v31) = W7 m ρ c (Proc.devRef .tc main_v31) by
    simp only [hostOps2, hostOps2_1]
    after_results_simp).trans ((W7_of_ne m ρ c main_v31 (by decide)).trans (carry6_v31 m ρ c))

theorem carry9_arg3 (c : Dev nD) : W9 m ρ c (Proc.devRef .tc main_arg3) = W3 m ρ c (Proc.devRef .tc main_arg3) :=
  (show StableHlo.after hostOps2_1 (StableHlo.after hostOps2 (W7 m ρ c)) (Proc.devRef .tc main_arg3) = W7 m ρ c (Proc.devRef .tc main_arg3) by
    simp only [hostOps2, hostOps2_1]
    after_results_simp).trans ((W7_of_ne m ρ c main_arg3 (by decide)).trans (carry6_arg3 m ρ c))

theorem carry9_arg8 (c : Dev nD) : W9 m ρ c (Proc.devRef .tc main_arg8) = W3 m ρ c (Proc.devRef .tc main_arg8) :=
  (show StableHlo.after hostOps2_1 (StableHlo.after hostOps2 (W7 m ρ c)) (Proc.devRef .tc main_arg8) = W7 m ρ c (Proc.devRef .tc main_arg8) by
    simp only [hostOps2, hostOps2_1]
    after_results_simp).trans ((W7_of_ne m ρ c main_arg8 (by decide)).trans (carry6_arg8 m ρ c))

theorem carry9_arg9 (c : Dev nD) : W9 m ρ c (Proc.devRef .tc main_arg9) = W3 m ρ c (Proc.devRef .tc main_arg9) :=
  (show StableHlo.after hostOps2_1 (StableHlo.after hostOps2 (W7 m ρ c)) (Proc.devRef .tc main_arg9) = W7 m ρ c (Proc.devRef .tc main_arg9) by
    simp only [hostOps2, hostOps2_1]
    after_results_simp).trans ((W7_of_ne m ρ c main_arg9 (by decide)).trans (carry6_arg9 m ρ c))

/-! ## Behind the third region -/

theorem carry10_v3 (c : Dev nD) : W10 m ρ c (Proc.devRef .tc main_v3) = W3 m ρ c (Proc.devRef .tc main_v3) :=
  (W10_of_ne m ρ c main_v3 (by decide)).trans (carry9_v3 m ρ c)

theorem carry10_v6 (c : Dev nD) : W10 m ρ c (Proc.devRef .tc main_v6) = W3 m ρ c (Proc.devRef .tc main_v6) :=
  (W10_of_ne m ρ c main_v6 (by decide)).trans (carry9_v6 m ρ c)

theorem carry10_v31 (c : Dev nD) : W10 m ρ c (Proc.devRef .tc main_v31) = W3 m ρ c (Proc.devRef .tc main_v31) :=
  (W10_of_ne m ρ c main_v31 (by decide)).trans (carry9_v31 m ρ c)

theorem carry10_arg3 (c : Dev nD) : W10 m ρ c (Proc.devRef .tc main_arg3) = W3 m ρ c (Proc.devRef .tc main_arg3) :=
  (W10_of_ne m ρ c main_arg3 (by decide)).trans (carry9_arg3 m ρ c)

theorem carry10_arg9 (c : Dev nD) : W10 m ρ c (Proc.devRef .tc main_arg9) = W3 m ρ c (Proc.devRef .tc main_arg9) :=
  (W10_of_ne m ρ c main_arg9 (by decide)).trans (carry9_arg9 m ρ c)

end Cert.Bridge

end
-- ==== Proof.Layer1.lean ====
/-
  The first layer's host operations, between the first and the second region.

  From the first product h = x · W₁ (the first region's array, main_v32) the host computes
      out = relu( segment-sum over dst of ( h[src e] · norm e ) + b₁ )          (main_v49),
  reading the edge arrays of the first boundary again. If the region's array is the reference's product
  (`val_main_v32` of the arguments), the result is the reference's first layer (`val_main_v49`): the operations
  are the same, one by one.
-/
import proofs.«138662_j3315714752625_1_alg».proof.Proof.Stage0
import proofs.«138662_j3315714752625_1_alg».proof.Proof.Carry

set_option maxRecDepth 16384

noncomputable section

open Idealize.ShloMosaic Idealize.ShloMosaic.TcCoe Idealize.SL.Sem Idealize.ShloMosaic.StableHlo

namespace Cert.Bridge

open Cert.KernelIdeal Cert.KernelIdeal.Gen

variable {F : FTy → Type} [FloatOps F]
variable (m : (ℓ : Loc nD τ sig) → Buf (Elt F) ℓ) (ρ : Dev nD → PrngReg)

theorem w6_layer1 (c : Dev nD)
    (h : W4 m ρ c (Proc.devRef .tc main_v32) = Cert.ReferenceIdeal.Read.val_main_v32 (F := F) (m ((c : Thread nD τ).loc main_arg0)) (m ((c : Thread nD τ).loc main_arg4))) :
    W6 m ρ c (Proc.devRef .tc main_v49)
      = Cert.ReferenceIdeal.Read.val_main_v49 (F := F) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps1_1 (StableHlo.after hostOps1 (W4 m ρ c)) _ = _
  simp only [hostOps1, hostOps1_1]
  after_results_simp
  rw [h, carry4_v3, carry4_v6, carry4_v31, carry4_arg5, w3_src, w3_dst, w3_norm, w3_arg5]
  rfl

end Cert.Bridge

end
-- ==== Proof.Layer2.lean ====
/-
  The second layer's host operations, between the second and the third region.

  From the second product h = h₁ · W₂ (the second region's array, main_v50) the host computes
      out = relu( segment-sum over dst of ( h[src e] · norm e ) + b₂ )          (main_v67),
  with the edge sources, destinations and normalisation of the first boundary. The reference program computes the
  normalisation a second time for this layer (its `val_main_v72`), by the same operations on the same arguments
  as the first time (`val_main_v31`): the two are one function, which is all that is used of it here.
-/
import proofs.«138662_j3315714752625_1_alg».proof.Proof.Stage0
import proofs.«138662_j3315714752625_1_alg».proof.Proof.Carry

set_option maxRecDepth 16384

noncomputable section

open Idealize.ShloMosaic Idealize.ShloMosaic.TcCoe Idealize.SL.Sem Idealize.ShloMosaic.StableHlo

namespace Cert.Bridge

open Cert.KernelIdeal Cert.KernelIdeal.Gen

variable {F : FTy → Type} [FloatOps F]
variable (m : (ℓ : Loc nD τ sig) → Buf (Elt F) ℓ) (ρ : Dev nD → PrngReg)

theorem w9_layer2 (c : Dev nD)
    (h : W7 m ρ c (Proc.devRef .tc main_v50)
          = Cert.ReferenceIdeal.Read.val_main_v73 (F := F) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) :
    W9 m ρ c (Proc.devRef .tc main_v67)
      = Cert.ReferenceIdeal.Read.val_main_v90 (F := F) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps2_1 (StableHlo.after hostOps2 (W7 m ρ c)) _ = _
  simp only [hostOps2, hostOps2_1]
  after_results_simp
  rw [h, carry7_v3, carry7_v6, carry7_v31, carry7_arg7, w3_src, w3_dst, w3_norm, w3_arg7]
  rfl

end Cert.Bridge

end
-- ==== Proof.Tail.lean ====
/-
  The last layer's host operations and the pooling, behind the third region.

  From the third product h = h₂ · W₃ (the third region's array, main_v68) the host computes the third layer
  (no relu), sums the rows of every graph of the batch (argument 3 gives each node's graph), divides by the
  number of nodes of the graph (at least one) and takes the log-softmax of each row: the result main_v97. The
  reference does the same, with its third computation of the normalisation (`val_main_v113`), again the function
  `val_main_v31` of the same arguments.
-/
import proofs.«138662_j3315714752625_1_alg».proof.Proof.Stage0
import proofs.«138662_j3315714752625_1_alg».proof.Proof.Carry

set_option maxRecDepth 16384

noncomputable section

open Idealize.ShloMosaic Idealize.ShloMosaic.TcCoe Idealize.SL.Sem Idealize.ShloMosaic.StableHlo

namespace Cert.Bridge

open Cert.KernelIdeal Cert.KernelIdeal.Gen

variable {F : FTy → Type} [FloatOps F]
variable (m : (ℓ : Loc nD τ sig) → Buf (Elt F) ℓ) (ρ : Dev nD → PrngReg)

theorem w12_result (c : Dev nD)
    (h : W10 m ρ c (Proc.devRef .tc main_v68)
          = Cert.ReferenceIdeal.Read.val_main_v114 (F := F) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) :
    W12 m ρ c (Proc.devRef .tc main_v97)
      = Cert.ReferenceIdeal.Read.val_main_v143 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3_1 (StableHlo.after hostOps3 (W10 m ρ c)) _ = _
  simp only [hostOps3, hostOps3_1]
  after_results_simp
  rw [h, carry10_v3, carry10_v6, carry10_v31, carry10_arg3, carry10_arg9, w3_src, w3_dst, w3_norm, w3_arg3, w3_arg9]
  rfl

end Cert.Bridge

end
-- ==== Proof.MatmulAt.lean ====
/-
  The three block products of the kernel, read at one output index, at the ideal values.

  Each kernel body rounds its two loaded blocks to bf16 (the identity on the extended reals; the second and third
  bodies first cast the row block to its own shape, also the identity) and multiplies them into a zero accumulator.
  At the ideal values the result at row `p`, column `q` is the plain sum over the contracted index `k` of
  (row block at (p, k)) · (weight block at (k, q)): the accumulator contributes the extended real 0, and the
  contraction index of a one-axis contraction is its one coordinate.
-/
import proofs.«138662_j3315714752625_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.Bridge

open Idealize.ShloMosaic Idealize.ShloMosaic.ValueIdx
open Cert.KernelIdeal Cert.KernelIdeal.Gen

/-- The offsets of a whole-block load or store, however the two zeros are spelt. -/
theorem zeroOffsets : (![0, 0] : Fin 2 → Nat) = fun _ => 0 := funext fun a => by fin_cases a <;> rfl

/-! ## The [2000,128] · [128,128] product -/

/-- The left operand's index at output index `j` and contraction index `q`: row `j 0` … -/
theorem dotSq_lhs0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- … column the contraction coordinate. -/
theorem dotSq_lhs1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
/-- The right operand's index: row the contraction coordinate … -/
theorem dotSq_rhs0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
/-- … column `j 1`. -/
theorem dotSq_rhs1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Row `j 0`, column `k` of a [2000,128] block. -/
abbrev rowIdx (j : S2000x128.Idx) (k : Fin 128) : S2000x128.Idx :=
  ix2 (⟨(j 0).val, (j 0).isLt⟩ : Fin 2000) k
/-- Row `k`, column `j 1` of a [128,128] block. -/
abbrev colIdx (j : S2000x128.Idx) (k : Fin 128) : S128x128.Idx :=
  ix2 k (⟨(j 1).val, (j 1).isLt⟩ : Fin 128)

/-- A [2000,128] block times a [128,128] block into the zero accumulator, at an index: the sum over `k` of
    left (row, k) · right (k, column). -/
theorem matmulSq_apply (x : FVec Ideal S2000x128 .bf16) (w : FVec Ideal S128x128 .bf16) (j : S2000x128.Idx) :
    matmul (F := Ideal) dot_S2000x128_S128x128_S2000x128_1_0_0_1_n_n none x w (constant S2000x128 .f32 0x00000000#32) j
      = ∑ k : Fin 128, x (rowIdx j k) * w (colIdx j k) := by
  refine (Ideal.matmul_constant_zero_apply dot_S2000x128_S128x128_S2000x128_1_0_0_1_n_n none x w j).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = rowIdx j k := funext fun a => Fin.ext (by
    match a with
    | ⟨0, _⟩ => exact dotSq_lhs0 _ _
    | ⟨1, _⟩ => exact (dotSq_lhs1 _ _).trans hk)
  have er : dot_S2000x128_S128x128_S2000x128_1_0_0_1_n_n.rhsIdx j ((ValueIdx.contrEquiv1 dot_S2000x128_S128x128_S2000x128_1_0_0_1_n_n 128 rfl rfl).symm k) = colIdx j k := funext fun a => Fin.ext (by
    match a with
    | ⟨0, _⟩ => exact (dotSq_rhs0 _ _).trans hk
    | ⟨1, _⟩ => exact dotSq_rhs1 _ _)
  rw [el, er]

/-- The first body's stored value at an index (the roundings to bf16 are the identity on the extended reals). -/
theorem pay0_apply (x : Vec Ideal S2000x128 .f32) (w : Vec Ideal S128x128 .f32) (j : S2000x128.Idx) :
    k0_pay1 (F := Ideal) x w j = ∑ k : Fin 128, x (rowIdx j k) * w (colIdx j k) := by
  unfold k0_pay1
  exact matmulSq_apply _ _ j

/-- The second body's: the cast of the row block to its own shape is the identity as well. -/
theorem pay1_apply (x : Vec Ideal S2000x128 .f32) (w : Vec Ideal S128x128 .f32) (j : S2000x128.Idx) :
    k1_pay1 (F := Ideal) x w j = ∑ k : Fin 128, x (rowIdx j k) * w (colIdx j k) := by
  unfold k1_pay1
  refine (matmulSq_apply _ _ j).trans ?_
  refine Finset.sum_congr rfl fun k _ => ?_
  exact congrArg (fun v : FVec Ideal S2000x128 .f32 => v (rowIdx j k) * w (colIdx j k)) (shapeCast_self x _)

/-! ## The [2000,128] · [128,10] product -/

theorem dotOut_lhs0 (j : S2000x10.Idx) (q : dot_S2000x128_S128x10_S2000x10_1_0_0_1_n_n.contr.Idx) :
    (dot_S2000x128_S128x10_S2000x10_1_0_0_1_n_n.lhsIdx j q 0).val = (j 0).val := by
  unfold DotDims.lhsIdx
  rw [dif_neg (show ¬(0 : Fin S2000x128.rank) ∈ dot_S2000x128_S128x10_S2000x10_1_0_0_1_n_n.lhsBatch by decide),
    dif_pos (show (0 : Fin S2000x128.rank) ∈ dot_S2000x128_S128x10_S2000x10_1_0_0_1_n_n.lhsNonContracting by decide)]
  rfl
theorem dotOut_lhs1 (j : S2000x10.Idx) (q : dot_S2000x128_S128x10_S2000x10_1_0_0_1_n_n.contr.Idx) :
    (dot_S2000x128_S128x10_S2000x10_1_0_0_1_n_n.lhsIdx j q 1).val = (q ⟨0, by decide⟩).val :=
  dot_S2000x128_S128x10_S2000x10_1_0_0_1_n_n.lhsIdx_val_of_single rfl j q
theorem dotOut_rhs0 (j : S2000x10.Idx) (q : dot_S2000x128_S128x10_S2000x10_1_0_0_1_n_n.contr.Idx) :
    (dot_S2000x128_S128x10_S2000x10_1_0_0_1_n_n.rhsIdx j q 0).val = (q ⟨0, by decide⟩).val :=
  dot_S2000x128_S128x10_S2000x10_1_0_0_1_n_n.rhsIdx_val_of_single rfl j q
theorem dotOut_rhs1 (j : S2000x10.Idx) (q : dot_S2000x128_S128x10_S2000x10_1_0_0_1_n_n.contr.Idx) :
    (dot_S2000x128_S128x10_S2000x10_1_0_0_1_n_n.rhsIdx j q 1).val = (j 1).val := by
  unfold DotDims.rhsIdx
  rw [dif_neg (show ¬(1 : Fin S128x10.rank) ∈ dot_S2000x128_S128x10_S2000x10_1_0_0_1_n_n.rhsBatch by decide),
    dif_pos (show (1 : Fin S128x10.rank) ∈ dot_S2000x128_S128x10_S2000x10_1_0_0_1_n_n.rhsNonContracting by decide)]
  rfl

/-- Row `j 0`, column `k` of a [2000,128] block, for an index `j` of the [2000,10] result. -/
abbrev rowIdxOut (j : S2000x10.Idx) (k : Fin 128) : S2000x128.Idx :=
  ix2 (⟨(j 0).val, (j 0).isLt⟩ : Fin 2000) k
/-- Row `k`, column `j 1` of a [128,10] block. -/
abbrev colIdxOut (j : S2000x10.Idx) (k : Fin 128) : S128x10.Idx :=
  ix2 k (⟨(j 1).val, (j 1).isLt⟩ : Fin 10)

/-- A [2000,128] block times a [128,10] block into the zero accumulator, at an index. -/
theorem matmulOut_apply (x : FVec Ideal S2000x128 .bf16) (w : FVec Ideal S128x10 .bf16) (j : S2000x10.Idx) :
    matmul (F := Ideal) dot_S2000x128_S128x10_S2000x10_1_0_0_1_n_n none x w (constant S2000x10 .f32 0x00000000#32) j
      = ∑ k : Fin 128, x (rowIdxOut j k) * w (colIdxOut j k) := by
  refine (Ideal.matmul_constant_zero_apply dot_S2000x128_S128x10_S2000x10_1_0_0_1_n_n none x w j).trans ?_
  rw [← Equiv.sum_comp (ValueIdx.contrEquiv1 dot_S2000x128_S128x10_S2000x10_1_0_0_1_n_n 128 rfl rfl).symm]
  refine Finset.sum_congr rfl fun k _ => ?_
  have hk := ValueIdx.contrEquiv1_symm_val dot_S2000x128_S128x10_S2000x10_1_0_0_1_n_n 128 rfl rfl k
  have el : dot_S2000x128_S128x10_S2000x10_1_0_0_1_n_n.lhsIdx j ((ValueIdx.contrEquiv1 dot_S2000x128_S128x10_S2000x10_1_0_0_1_n_n 128 rfl rfl).symm k) = rowIdxOut j k := funext fun a => Fin.ext (by
    match a with
    | ⟨0, _⟩ => exact dotOut_lhs0 _ _
    | ⟨1, _⟩ => exact (dotOut_lhs1 _ _).trans hk)
  have er : dot_S2000x128_S128x10_S2000x10_1_0_0_1_n_n.rhsIdx j ((ValueIdx.contrEquiv1 dot_S2000x128_S128x10_S2000x10_1_0_0_1_n_n 128 rfl rfl).symm k) = colIdxOut j k := funext fun a => Fin.ext (by
    match a with
    | ⟨0, _⟩ => exact (dotOut_rhs0 _ _).trans hk
    | ⟨1, _⟩ => exact dotOut_rhs1 _ _)
  rw [el, er]

/-- The third body's stored value at an index. -/
theorem pay2_apply (x : Vec Ideal S2000x128 .f32) (w : Vec Ideal S128x10 .f32) (j : S2000x10.Idx) :
    k2_pay1 (F := Ideal) x w j = ∑ k : Fin 128, x (rowIdxOut j k) * w (colIdxOut j k) := by
  unfold k2_pay1
  refine (matmulOut_apply _ _ j).trans ?_
  refine Finset.sum_congr rfl fun k _ => ?_
  exact congrArg (fun v : FVec Ideal S2000x128 .f32 => v (rowIdxOut j k) * w (colIdxOut j k)) (shapeCast_self x _)

end Cert.Bridge

end
-- ==== Proof.Region0.lean ====
/-
  The first matmul region: its result array after the region is the host product of the two arrays it found.

  The region runs over 25 grid points. Point `t` stages rows 2000·t … 2000·t + 1999 of the row operand
  (a [50000,128] array), the whole weight array [128,128], multiplies the two blocks into a zero accumulator and
  writes the [2000,128] product back to rows 2000·t … 2000·t + 1999 of the result. At the ideal values the product of
  the row block with the weights is the matching row block of (rows · weights) — each result element is the sum over
  the contracted index of row element times weight element, and reads only its own row —, every point writes back,
  and the 25 row blocks tile the 50000 rows. So the array ends holding the host's `dot_general` of the two arrays.
-/
import proofs.«138662_j3315714752625_1_alg».proof.Proof.Gen.KernelIdeal.Frame
import proofs.«138662_j3315714752625_1_alg».proof.Proof.Gen.ReferenceIdeal.Read
import proofs.«138662_j3315714752625_1_alg».proof.Proof.MatmulAt
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.Bridge

open Cert.KernelIdeal Cert.KernelIdeal.Gen

variable (V : (c : Dev nD) → (b : Ref sig .tc) → Buf (Elt Ideal) ((c : Thread nD τ).loc b))

/-- The block indices at grid point `t`: the row operand's and the result's blocks are row block `t`, column block 0;
    the weights' block is always block (0, 0). Decided over the 25 points. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row operand's block at point `t`, at (p, k), is the array at (2000·t + p, k). -/
theorem rowBlock0_apply (c : Dev nD) (t : Fin cfg0.N) (y : S2000x128.Idx) (i : S50000x128.Idx)
    (h0 : (i 0).val = t.val * 2000 + (y 0).val) (h1 : (i 1).val = (y 1).val) :
    (iblk0 V c 0 t : Vec Ideal S2000x128 .f32) y = (V c main_arg0 : S50000x128.Idx → EReal) i := by
  obtain ⟨e0, e1, -, -, -, -⟩ := blockIndex0 t
  show V c main_arg0 (((cfg0.win 0).blk t).view.emb y) = V c main_arg0 i
  refine congrArg (V c main_arg0) ?_
  funext a; apply Fin.ext
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- The weights' block at any point is the whole array. -/
theorem weightBlock0_apply (c : Dev nD) (t : Fin cfg0.N) (y : S128x128.Idx) (i : S128x128.Idx)
    (h0 : (i 0).val = (y 0).val) (h1 : (i 1).val = (y 1).val) :
    (iblk0 V c 1 t : Vec Ideal S128x128 .f32) y = (V c main_arg4 : S128x128.Idx → EReal) i := by
  obtain ⟨-, -, e2, e3, -, -⟩ := blockIndex0 t
  show V c main_arg4 (((cfg0.win 1).blk t).view.emb y) = V c main_arg4 i
  refine congrArg (V c main_arg4) ?_
  funext a; apply Fin.ext
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- The host product of the two arrays the region found. -/
abbrev product0 (c : Dev nD) : S50000x128.Idx → EReal :=
  Host.dotGeneral (F := Ideal) (φ₁ := .f32) (φ₂ := .f32) Cert.ReferenceIdeal.dot_S50000x128_S128x128_S50000x128_1_0_0_1_n_n none (V c main_arg0) (V c main_arg4)

/-- What point `t` writes back is row block `t` of the host product: element (p, q) of the block product is
    ∑ₖ rows (2000·t + p, k) · weights (k, q), which is element (2000·t + p, q) of the host product. -/
theorem flushed0_eq (c : Dev nD) (t : Fin cfg0.N) :
    (dat0 V c).flushed 2 t = ((cfg0.win 2).blk t).view.read (Elt Ideal) (product0 V c) := by
  show (cfg0.win 2).cut (grid0.coords t) ((dat0 V c).after 2 t) = _
  rw [after0_2]
  unfold out0_2
  rw [View.canon_unit_zero zeroOffsets]
  simp only [View.ld_unit_zero (S := S2000x128) zeroOffsets, View.ld_unit_zero (S := S128x128) zeroOffsets]
  obtain ⟨-, -, -, -, e4, e5⟩ := blockIndex0 t
  refine funext fun (j : S2000x128.Idx) => ?_
  show k0_pay1 (F := Ideal) (iblk0 V c 0 t) (iblk0 V c 1 t) j = product0 V c (((cfg0.win 2).blk t).view.emb j)
  refine (pay0_apply (iblk0 V c 0 t) (iblk0 V c 1 t) j).trans ?_
  refine Eq.trans ?_ (Cert.ReferenceIdeal.Read.val_main_v32_apply (V c main_arg0) (V c main_arg4) (((cfg0.win 2).blk t).view.emb j)).symm
  refine Finset.sum_congr rfl fun k _ => ?_
  refine congrArg₂ (· * ·) (rowBlock0_apply V c t _ _ ?_ ?_) (weightBlock0_apply V c t _ _ ?_ ?_)
  · show win0_2.index t (0 : Fin 2) * 2000 + 1 * (j 0).val = t.val * 2000 + (j 0).val; omega
  · rfl
  · rfl
  · show win0_2.index t (1 : Fin 2) * 128 + 1 * (j 1).val = (j 1).val; omega

/-- An index of the result array is in point `t`'s block iff each coordinate is in the block's range on its axis. -/
theorem mem_block0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Every index of the result array is in some writing point's block: row `r` is in block `r / 2000`. -/
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, e4, e5⟩ := blockIndex0 t
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- THE FIRST REGION'S RESULT ARRAY after the region is the host product of the two arrays the region found. -/
theorem region0_array (c : Dev nD) :
    (dat0 (F := Ideal) V c).arrAt 2 cfg0.N
      = Host.dotGeneral (F := Ideal) (φ₁ := .f32) (φ₂ := .f32) Cert.ReferenceIdeal.dot_S50000x128_S128x128_S50000x128_1_0_0_1_n_n none (V c main_arg0) (V c main_arg4) :=
  (dat0 V c).arrAt_eq_of_cover 2 (product0 V c) (fun t _ => flushed0_eq V c t) covered0

/-- The same, with the host product named as the reference's stage of that operation at these two arrays. -/
theorem region0_array_val (c : Dev nD) :
    (dat0 (F := Ideal) V c).arrAt 2 cfg0.N
      = Cert.ReferenceIdeal.Read.val_main_v32 (F := Ideal) (V c main_arg0) (V c main_arg4) :=
  region0_array V c

end Cert.Bridge

end
-- ==== Proof.Region1.lean ====
/-
  The second matmul region: its result array after the region is the host product of the two arrays it found.

  The region runs over 25 grid points. Point `t` stages rows 2000·t … 2000·t + 1999 of the row operand
  (a [50000,128] array), the whole weight array [128,128], multiplies the two blocks (the row block first cast to its own
  shape, the identity) into a zero accumulator and
  writes the [2000,128] product back to rows 2000·t … 2000·t + 1999 of the result. At the ideal values the product of
  the row block with the weights is the matching row block of (rows · weights) — each result element is the sum over
  the contracted index of row element times weight element, and reads only its own row —, every point writes back,
  and the 25 row blocks tile the 50000 rows. So the array ends holding the host's `dot_general` of the two arrays.
-/
import proofs.«138662_j3315714752625_1_alg».proof.Proof.Gen.KernelIdeal.Frame
import proofs.«138662_j3315714752625_1_alg».proof.Proof.Gen.ReferenceIdeal.Read
import proofs.«138662_j3315714752625_1_alg».proof.Proof.MatmulAt
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.Bridge

open Cert.KernelIdeal Cert.KernelIdeal.Gen

variable (V : (c : Dev nD) → (b : Ref sig .tc) → Buf (Elt Ideal) ((c : Thread nD τ).loc b))

/-- The block indices at grid point `t`: the row operand's and the result's blocks are row block `t`, column block 0;
    the weights' block is always block (0, 0). Decided over the 25 points. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row operand's block at point `t`, at (p, k), is the array at (2000·t + p, k). -/
theorem rowBlock1_apply (c : Dev nD) (t : Fin cfg1.N) (y : S2000x128.Idx) (i : S50000x128.Idx)
    (h0 : (i 0).val = t.val * 2000 + (y 0).val) (h1 : (i 1).val = (y 1).val) :
    (iblk1 V c 0 t : Vec Ideal S2000x128 .f32) y = (V c main_v49 : S50000x128.Idx → EReal) i := by
  obtain ⟨e0, e1, -, -, -, -⟩ := blockIndex1 t
  show V c main_v49 (((cfg1.win 0).blk t).view.emb y) = V c main_v49 i
  refine congrArg (V c main_v49) ?_
  funext a; apply Fin.ext
  match a with
  | ⟨0, _⟩ => show win1_0.index t (0 : Fin 2) * 2000 + 1 * (y 0).val = (i 0).val; omega
  | ⟨1, _⟩ => show win1_0.index t (1 : Fin 2) * 128 + 1 * (y 1).val = (i 1).val; omega

/-- The weights' block at any point is the whole array. -/
theorem weightBlock1_apply (c : Dev nD) (t : Fin cfg1.N) (y : S128x128.Idx) (i : S128x128.Idx)
    (h0 : (i 0).val = (y 0).val) (h1 : (i 1).val = (y 1).val) :
    (iblk1 V c 1 t : Vec Ideal S128x128 .f32) y = (V c main_arg6 : S128x128.Idx → EReal) i := by
  obtain ⟨-, -, e2, e3, -, -⟩ := blockIndex1 t
  show V c main_arg6 (((cfg1.win 1).blk t).view.emb y) = V c main_arg6 i
  refine congrArg (V c main_arg6) ?_
  funext a; apply Fin.ext
  match a with
  | ⟨0, _⟩ => show win1_1.index t (0 : Fin 2) * 128 + 1 * (y 0).val = (i 0).val; omega
  | ⟨1, _⟩ => show win1_1.index t (1 : Fin 2) * 128 + 1 * (y 1).val = (i 1).val; omega

/-- The host product of the two arrays the region found. -/
abbrev product1 (c : Dev nD) : S50000x128.Idx → EReal :=
  Host.dotGeneral (F := Ideal) (φ₁ := .f32) (φ₂ := .f32) Cert.ReferenceIdeal.dot_S50000x128_S128x128_S50000x128_1_0_0_1_n_n none (V c main_v49) (V c main_arg6)

/-- What point `t` writes back is row block `t` of the host product: element (p, q) of the block product is
    ∑ₖ rows (2000·t + p, k) · weights (k, q), which is element (2000·t + p, q) of the host product. -/
theorem flushed1_eq (c : Dev nD) (t : Fin cfg1.N) :
    (dat1 V c).flushed 2 t = ((cfg1.win 2).blk t).view.read (Elt Ideal) (product1 V c) := by
  show (cfg1.win 2).cut (grid1.coords t) ((dat1 V c).after 2 t) = _
  rw [after1_2]
  unfold out1_2
  rw [View.canon_unit_zero zeroOffsets]
  simp only [View.ld_unit_zero (S := S2000x128) zeroOffsets, View.ld_unit_zero (S := S128x128) zeroOffsets]
  obtain ⟨-, -, -, -, e4, e5⟩ := blockIndex1 t
  refine funext fun (j : S2000x128.Idx) => ?_
  show k1_pay1 (F := Ideal) (iblk1 V c 0 t) (iblk1 V c 1 t) j = product1 V c (((cfg1.win 2).blk t).view.emb j)
  refine (pay1_apply (iblk1 V c 0 t) (iblk1 V c 1 t) j).trans ?_
  refine Eq.trans ?_ (Cert.ReferenceIdeal.Read.val_main_v32_apply (V c main_v49) (V c main_arg6) (((cfg1.win 2).blk t).view.emb j)).symm
  refine Finset.sum_congr rfl fun k _ => ?_
  refine congrArg₂ (· * ·) (rowBlock1_apply V c t _ _ ?_ ?_) (weightBlock1_apply V c t _ _ ?_ ?_)
  · show win1_2.index t (0 : Fin 2) * 2000 + 1 * (j 0).val = t.val * 2000 + (j 0).val; omega
  · rfl
  · rfl
  · show win1_2.index t (1 : Fin 2) * 128 + 1 * (j 1).val = (j 1).val; omega

/-- An index of the result array is in point `t`'s block iff each coordinate is in the block's range on its axis. -/
theorem mem_block1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v50).slice (win1_2.rect t)).set ↔ _
  rw [View.set_slice_whole, Rect.mem_set_unit]
  exact Iff.rfl

/-- Every index of the result array is in some writing point's block: row `r` is in block `r / 2000`. -/
theorem covered1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, -, e4, e5⟩ := blockIndex1 t
  refine ⟨t, flush1_2 t, ?_⟩
  rw [mem_block1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- THE SECOND REGION'S RESULT ARRAY after the region is the host product of the two arrays the region found. -/
theorem region1_array (c : Dev nD) :
    (dat1 (F := Ideal) V c).arrAt 2 cfg1.N
      = Host.dotGeneral (F := Ideal) (φ₁ := .f32) (φ₂ := .f32) Cert.ReferenceIdeal.dot_S50000x128_S128x128_S50000x128_1_0_0_1_n_n none (V c main_v49) (V c main_arg6) :=
  (dat1 V c).arrAt_eq_of_cover 2 (product1 V c) (fun t _ => flushed1_eq V c t) covered1

end Cert.Bridge

end
-- ==== Proof.Region2.lean ====
/-
  The third matmul region: its result array after the region is the host product of the two arrays it found.

  The region runs over 25 grid points. Point `t` stages rows 2000·t … 2000·t + 1999 of the row operand
  (a [50000,128] array), the whole weight array [128,10], multiplies the two blocks (the row block first cast to its own
  shape, the identity) into a zero accumulator and writes the [2000,10] product back to rows 2000·t … 2000·t + 1999 of
  the [50000,10] result. At the ideal values the product of the row block with the weights is the matching row block
  of (rows · weights) — each result element is the sum over the contracted index of row element times weight element,
  and reads only its own row —, every point writes back, and the 25 row blocks tile the 50000 rows. So the array ends
  holding the host's `dot_general` of the two arrays.
-/
import proofs.«138662_j3315714752625_1_alg».proof.Proof.Gen.KernelIdeal.Frame
import proofs.«138662_j3315714752625_1_alg».proof.Proof.Gen.ReferenceIdeal.Read
import proofs.«138662_j3315714752625_1_alg».proof.Proof.MatmulAt
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.Bridge

open Cert.KernelIdeal Cert.KernelIdeal.Gen

variable (V : (c : Dev nD) → (b : Ref sig .tc) → Buf (Elt Ideal) ((c : Thread nD τ).loc b))

/-- The host's [50000,128] · [128,10] product of ANY two arrays, at an index: the sum over `k` of
    left (row, k) · right (k, column). The contraction index of its one contracted axis is its one coordinate. -/
theorem hostProductOut_apply (x : Cert.ReferenceIdeal.S50000x128.Idx → EReal) (w : Cert.ReferenceIdeal.S128x10.Idx → EReal)
    (i : Cert.ReferenceIdeal.S50000x10.Idx) :
    Host.dotGeneral (F := Ideal) (φ₁ := .f32) (φ₂ := .f32) Cert.ReferenceIdeal.dot_S50000x128_S128x10_S50000x10_1_0_0_1_n_n none x w i
      = ∑ k : Fin 128, x (Cert.ReferenceIdeal.Read.lidx_main_v114 i k) * w (Cert.ReferenceIdeal.Read.ridx_main_v114 i k) := by
  simp only [Host.dotGeneral]
  rw [Ideal.dotGeneral_apply, ← Equiv.sum_comp (ValueIdx.contrEquiv1 Cert.ReferenceIdeal.dot_S50000x128_S128x10_S50000x10_1_0_0_1_n_n 128 rfl rfl).symm]
  refine Finset.sum_congr rfl fun k _ => ?_
  have hk := ValueIdx.contrEquiv1_symm_val Cert.ReferenceIdeal.dot_S50000x128_S128x10_S50000x10_1_0_0_1_n_n 128 rfl rfl k
  have el : Cert.ReferenceIdeal.dot_S50000x128_S128x10_S50000x10_1_0_0_1_n_n.lhsIdx i ((ValueIdx.contrEquiv1 Cert.ReferenceIdeal.dot_S50000x128_S128x10_S50000x10_1_0_0_1_n_n 128 rfl rfl).symm k) = Cert.ReferenceIdeal.Read.lidx_main_v114 i k := funext fun a => Fin.ext (by
    match a with
    | ⟨0, _⟩ => exact Cert.ReferenceIdeal.Read.lhs_main_v114_0 _ _
    | ⟨1, _⟩ => exact (Cert.ReferenceIdeal.Read.lhs_main_v114_1 _ _).trans hk)
  have er : Cert.ReferenceIdeal.dot_S50000x128_S128x10_S50000x10_1_0_0_1_n_n.rhsIdx i ((ValueIdx.contrEquiv1 Cert.ReferenceIdeal.dot_S50000x128_S128x10_S50000x10_1_0_0_1_n_n 128 rfl rfl).symm k) = Cert.ReferenceIdeal.Read.ridx_main_v114 i k := funext fun a => Fin.ext (by
    match a with
    | ⟨0, _⟩ => exact (Cert.ReferenceIdeal.Read.rhs_main_v114_0 _ _).trans hk
    | ⟨1, _⟩ => exact Cert.ReferenceIdeal.Read.rhs_main_v114_1 _ _)
  rw [el, er]

/-- The block indices at grid point `t`: the row operand's and the result's blocks are row block `t`, column block 0;
    the weights' block is always block (0, 0). Decided over the 25 points. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row operand's block at point `t`, at (p, k), is the array at (2000·t + p, k). -/
theorem rowBlock2_apply (c : Dev nD) (t : Fin cfg2.N) (y : S2000x128.Idx) (i : S50000x128.Idx)
    (h0 : (i 0).val = t.val * 2000 + (y 0).val) (h1 : (i 1).val = (y 1).val) :
    (iblk2 V c 0 t : Vec Ideal S2000x128 .f32) y = (V c main_v67 : S50000x128.Idx → EReal) i := by
  obtain ⟨e0, e1, -, -, -, -⟩ := blockIndex2 t
  show V c main_v67 (((cfg2.win 0).blk t).view.emb y) = V c main_v67 i
  refine congrArg (V c main_v67) ?_
  funext a; apply Fin.ext
  match a with
  | ⟨0, _⟩ => show win2_0.index t (0 : Fin 2) * 2000 + 1 * (y 0).val = (i 0).val; omega
  | ⟨1, _⟩ => show win2_0.index t (1 : Fin 2) * 128 + 1 * (y 1).val = (i 1).val; omega

/-- The weights' block at any point is the whole array. -/
theorem weightBlock2_apply (c : Dev nD) (t : Fin cfg2.N) (y : S128x10.Idx) (i : S128x10.Idx)
    (h0 : (i 0).val = (y 0).val) (h1 : (i 1).val = (y 1).val) :
    (iblk2 V c 1 t : Vec Ideal S128x10 .f32) y = (V c main_arg8 : S128x10.Idx → EReal) i := by
  obtain ⟨-, -, e2, e3, -, -⟩ := blockIndex2 t
  show V c main_arg8 (((cfg2.win 1).blk t).view.emb y) = V c main_arg8 i
  refine congrArg (V c main_arg8) ?_
  funext a; apply Fin.ext
  match a with
  | ⟨0, _⟩ => show win2_1.index t (0 : Fin 2) * 128 + 1 * (y 0).val = (i 0).val; omega
  | ⟨1, _⟩ => show win2_1.index t (1 : Fin 2) * 10 + 1 * (y 1).val = (i 1).val; omega

/-- The host product of the two arrays the region found. -/
abbrev product2 (c : Dev nD) : S50000x10.Idx → EReal :=
  Host.dotGeneral (F := Ideal) (φ₁ := .f32) (φ₂ := .f32) Cert.ReferenceIdeal.dot_S50000x128_S128x10_S50000x10_1_0_0_1_n_n none (V c main_v67) (V c main_arg8)

/-- What point `t` writes back is row block `t` of the host product: element (p, q) of the block product is
    ∑ₖ rows (2000·t + p, k) · weights (k, q), which is element (2000·t + p, q) of the host product. -/
theorem flushed2_eq (c : Dev nD) (t : Fin cfg2.N) :
    (dat2 V c).flushed 2 t = ((cfg2.win 2).blk t).view.read (Elt Ideal) (product2 V c) := by
  show (cfg2.win 2).cut (grid2.coords t) ((dat2 V c).after 2 t) = _
  rw [after2_2]
  unfold out2_2
  rw [View.canon_unit_zero zeroOffsets]
  simp only [View.ld_unit_zero (S := S2000x128) zeroOffsets, View.ld_unit_zero (S := S128x10) zeroOffsets]
  obtain ⟨-, -, -, -, e4, e5⟩ := blockIndex2 t
  refine funext fun (j : S2000x10.Idx) => ?_
  show k2_pay1 (F := Ideal) (iblk2 V c 0 t) (iblk2 V c 1 t) j = product2 V c (((cfg2.win 2).blk t).view.emb j)
  refine (pay2_apply (iblk2 V c 0 t) (iblk2 V c 1 t) j).trans ?_
  refine Eq.trans ?_ (hostProductOut_apply (V c main_v67) (V c main_arg8) (((cfg2.win 2).blk t).view.emb j)).symm
  refine Finset.sum_congr rfl fun k _ => ?_
  refine congrArg₂ (· * ·) (rowBlock2_apply V c t _ _ ?_ ?_) (weightBlock2_apply V c t _ _ ?_ ?_)
  · show win2_2.index t (0 : Fin 2) * 2000 + 1 * (j 0).val = t.val * 2000 + (j 0).val; omega
  · rfl
  · rfl
  · show win2_2.index t (1 : Fin 2) * 10 + 1 * (j 1).val = (j 1).val; omega

/-- An index of the result array is in point `t`'s block iff each coordinate is in the block's range on its axis. -/
theorem mem_block2 (t : Fin cfg2.N) (i : S50000x10.Idx) :
    i ∈ ((cfg2.win 2).blk t).view.set ↔ ∀ a : Fin 2, win2_2.index t a * S2000x10.size a ≤ (i a).val ∧ (i a).val < win2_2.index t a * S2000x10.size a + S2000x10.size a := by
  show i ∈ ((View.whole main_v68).slice (win2_2.rect t)).set ↔ _
  rw [View.set_slice_whole, Rect.mem_set_unit]
  exact Iff.rfl

/-- Every index of the result array is in some writing point's block: row `r` is in block `r / 2000`. -/
theorem covered2 (i : S50000x10.Idx) :
    ∃ t : Fin cfg2.N, (cfg2.win 2).flush t = true ∧ i ∈ ((cfg2.win 2).blk t).view.set := by
  have hi0 : (i 0).val < 50000 := (i 0).isLt
  have hi1 : (i 1).val < 10 := (i 1).isLt
  obtain ⟨t, ht⟩ : ∃ t : Fin cfg2.N, t.val = (i 0).val / 2000 :=
    ⟨⟨(i 0).val / 2000, by rw [show cfg2.N = 25 from N_2]; omega⟩, rfl⟩
  obtain ⟨-, -, -, -, e4, e5⟩ := blockIndex2 t
  refine ⟨t, flush2_2 t, ?_⟩
  rw [mem_block2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 10 ≤ (i 1).val ∧ (i 1).val < win2_2.index t (1 : Fin 2) * 10 + 10; omega

/-- THE THIRD REGION'S RESULT ARRAY after the region is the host product of the two arrays the region found. -/
theorem region2_array (c : Dev nD) :
    (dat2 (F := Ideal) V c).arrAt 2 cfg2.N
      = Host.dotGeneral (F := Ideal) (φ₁ := .f32) (φ₂ := .f32) Cert.ReferenceIdeal.dot_S50000x128_S128x10_S50000x10_1_0_0_1_n_n none (V c main_v67) (V c main_arg8) :=
  (dat2 V c).arrAt_eq_of_cover 2 (product2 V c) (fun t _ => flushed2_eq V c t) covered2

end Cert.Bridge

end
-- ==== Proof.Chain.lean ====
/-
  The kernel program's result, boundary by boundary, at the extended reals.

  @main alternates host operations and three matmul regions. Going through its boundaries in order:
    * in front of the first region the edge sources, destinations and normalisation are the reference's stages
      of the arguments, and the arguments are as launched (Stage0);
    * a region's output array is the host `dot_general` of the two arrays it found (the Region modules: a block
      of 2000 rows of x times the whole W, a sum over the 128 contracted entries, the 25 blocks tiling the rows),
      so behind region k it is the reference's k-th product;
    * the host operations behind a region are the reference's own (Layer1, Layer2, Tail), reading the edge arrays
      of the first boundary, which nothing has written since (Carry).
  Hence the result buffer at the last boundary is the reference's last stage `val_main_v143` of the kernel
  program's arguments.
-/
import proofs.«138662_j3315714752625_1_alg».proof.Proof.Layer1
import proofs.«138662_j3315714752625_1_alg».proof.Proof.Layer2
import proofs.«138662_j3315714752625_1_alg».proof.Proof.Tail
import proofs.«138662_j3315714752625_1_alg».proof.Proof.Region0
import proofs.«138662_j3315714752625_1_alg».proof.Proof.Region1
import proofs.«138662_j3315714752625_1_alg».proof.Proof.Region2
import Idealize.ShloMosaic.PureOps.Ideal

set_option maxRecDepth 16384

noncomputable section

open Idealize.ShloMosaic Idealize.ShloMosaic.TcCoe Idealize.SL.Sem Idealize.ShloMosaic.StableHlo

namespace Cert.Bridge

open Cert.KernelIdeal Cert.KernelIdeal.Gen

variable (m : (ℓ : Loc nD τ sig) → Buf (Elt Ideal) ℓ) (ρ : Dev nD → PrngReg)

/-- Behind the first region its output array is the reference's first product x · W₁. -/
theorem w4_product (c : Dev nD) :
    W4 m ρ c (Proc.devRef .tc main_v32) = Cert.ReferenceIdeal.Read.val_main_v32 (F := Ideal) (m ((c : Thread nD τ).loc main_arg0)) (m ((c : Thread nD τ).loc main_arg4)) := by
  refine (W4_arr m ρ c 2).trans ((region0_array (V3 m ρ) c).trans ?_)
  dsimp only [V3]
  rw [w3_arg0, w3_arg4]
  rfl

/-- Behind the second region its output array is the reference's second product h₁ · W₂. -/
theorem w7_product (c : Dev nD) :
    W7 m ρ c (Proc.devRef .tc main_v50)
      = Cert.ReferenceIdeal.Read.val_main_v73 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (W7_arr m ρ c 2).trans ((region1_array (V6 m ρ) c).trans ?_)
  dsimp only [V6]
  rw [w6_layer1 m ρ c (w4_product m ρ c), carry6_arg6, w3_arg6]
  rfl

/-- Behind the third region its output array is the reference's third product h₂ · W₃. -/
theorem w10_product (c : Dev nD) :
    W10 m ρ c (Proc.devRef .tc main_v68)
      = Cert.ReferenceIdeal.Read.val_main_v114 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ((region2_array (V9 m ρ) c).trans ?_)
  dsimp only [V9]
  rw [w9_layer2 m ρ c (w7_product m ρ c), carry9_arg8, w3_arg8]
  rfl

/-- At the last boundary the result buffer holds the reference's result, as a function of the kernel program's
    own arguments. -/
theorem w12_value (c : Dev nD) :
    W12 m ρ c (Proc.devRef .tc main_v97)
      = Cert.ReferenceIdeal.Read.val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  w12_result m ρ c (w10_product m ρ c)

end Cert.Bridge

end
-- ==== Proof.lean ====
/-
  A three-layer graph convolution network with mean pooling and a log-softmax, against its jnp reference,
  over the extended reals.

  Both programs are the same chain of host operations — gather the rows h[src e], scale by the symmetric
  normalisation norm e = dinv[src e] · w e · dinv[dst e], segment-sum over dst, add the bias, relu —; the kernel
  program computes each layer's dense product h = x · W by a Pallas matmul over 25 row blocks of 2000 (operands
  cast to bf16, accumulated in f32 from zero), the reference by one `dot_general`. At the ideal instance a change
  of float format is the identity and both products are the plain sum over the 128 contracted entries, so each
  region's array is the reference's product and the two results are one function of the arguments
  (Proof/Chain.lean). No law of the extended reals beyond that is used, and no finiteness: the precondition is
  never opened. The reference recomputes the normalisation in every layer where the kernel program computes it
  once: the same operations on the same arguments.

  The three frames: the two kernel programs' are generated; the reference's is its generated run with the result
  dropped. The ideal pass rewrote nothing, so `preserves` is `True`.
-/
import proofs.«138662_j3315714752625_1_alg».proof.Defs
import proofs.«138662_j3315714752625_1_alg».proof.Proof.Gen.Kernel
import proofs.«138662_j3315714752625_1_alg».proof.Proof.Gen.Kernel.Skeleton
import proofs.«138662_j3315714752625_1_alg».proof.Proof.Gen.Kernel.Launch
import proofs.«138662_j3315714752625_1_alg».proof.Proof.Gen.Kernel.Points
import proofs.«138662_j3315714752625_1_alg».proof.Proof.Gen.Kernel.Frame
import proofs.«138662_j3315714752625_1_alg».proof.Proof.Gen.KernelIdeal
import proofs.«138662_j3315714752625_1_alg».proof.Proof.Gen.KernelIdeal.Skeleton
import proofs.«138662_j3315714752625_1_alg».proof.Proof.Gen.KernelIdeal.Launch
import proofs.«138662_j3315714752625_1_alg».proof.Proof.Gen.KernelIdeal.Points
import proofs.«138662_j3315714752625_1_alg».proof.Proof.Gen.KernelIdeal.Frame
import proofs.«138662_j3315714752625_1_alg».proof.Proof.Gen.ReferenceIdeal
import proofs.«138662_j3315714752625_1_alg».proof.Proof.Gen.Pre_finite_inputs
import proofs.«138662_j3315714752625_1_alg».proof.Proof.Gen.ReferenceIdeal.Run
import proofs.«138662_j3315714752625_1_alg».proof.Proof.Gen.ReferenceIdeal.Read
import proofs.«138662_j3315714752625_1_alg».proof.Proof.KernelRun
import proofs.«138662_j3315714752625_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference has no kernel: its frame is its run, read back, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end at ONE function of the arguments: the reference's last stage
    `val_main_v143`. The kernel program ends with every buffer at its last boundary's contents, whose result
    buffer is that function of its own arguments (`Cert.Bridge.w12_value`: every host operation is the reference's,
    and each matmul region's array is the reference's product); the reference's run ends at the same function
    of arguments that agree with the kernel program's. -/
theorem algebraic : Cert.algebraic_KernelIdeal_ReferenceIdeal := by
  intro m ρ m' ρ' _ hagree
  refine ⟨fun c => Cert.ReferenceIdeal.Read.val_main_v143 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c _ (Cert.KernelIdeal.Gen.mem_uc Cert.KernelIdeal.main_v97 (by decide))).trans (Cert.Bridge.w12_value m ρ c),
       (h c _ (Cert.KernelIdeal.Gen.mem_uc Cert.KernelIdeal.main_arg0 (by decide))).trans (Cert.KernelIdeal.Gen.W12_main_arg0 m ρ c),
       (h c _ (Cert.KernelIdeal.Gen.mem_uc Cert.KernelIdeal.main_arg1 (by decide))).trans (Cert.KernelIdeal.Gen.W12_main_arg1 m ρ c),
       (h c _ (Cert.KernelIdeal.Gen.mem_uc Cert.KernelIdeal.main_arg2 (by decide))).trans (Cert.KernelIdeal.Gen.W12_main_arg2 m ρ c),
       (h c _ (Cert.KernelIdeal.Gen.mem_uc Cert.KernelIdeal.main_arg3 (by decide))).trans (Cert.KernelIdeal.Gen.W12_main_arg3 m ρ c),
       (h c _ (Cert.KernelIdeal.Gen.mem_uc Cert.KernelIdeal.main_arg4 (by decide))).trans (Cert.KernelIdeal.Gen.W12_main_arg4 m ρ c),
       (h c _ (Cert.KernelIdeal.Gen.mem_uc Cert.KernelIdeal.main_arg5 (by decide))).trans (Cert.KernelIdeal.Gen.W12_main_arg5 m ρ c),
       (h c _ (Cert.KernelIdeal.Gen.mem_uc Cert.KernelIdeal.main_arg6 (by decide))).trans (Cert.KernelIdeal.Gen.W12_main_arg6 m ρ c),
       (h c _ (Cert.KernelIdeal.Gen.mem_uc Cert.KernelIdeal.main_arg7 (by decide))).trans (Cert.KernelIdeal.Gen.W12_main_arg7 m ρ c),
       (h c _ (Cert.KernelIdeal.Gen.mem_uc Cert.KernelIdeal.main_arg8 (by decide))).trans (Cert.KernelIdeal.Gen.W12_main_arg8 m ρ c),
       (h c _ (Cert.KernelIdeal.Gen.mem_uc Cert.KernelIdeal.main_arg9 (by decide))).trans (Cert.KernelIdeal.Gen.W12_main_arg9 m ρ c)⟩)
      (Cert.KernelIdeal.Named.run_boundary m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9⟩ := hagree c
    rw [(h c).1, Cert.ReferenceIdeal.Read.val_main_v143_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
